-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S1x1x2048x2048 : Shape := ⟨4, ![1, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn_part1 {F : FTy → Type} [FloatOps F] (main_v13 : IVec S_ 1) (main_v16 : IVec S1x1x2048x2048 1) : IVec S_ 1 :=
  let main_c_5 : IVec S_ 1 := constantI S_ 1 1#1
  let main_v17 : IVec S_ 1 := (fun x v => Host.reduce IntOp.andi x v reducesTo_S1x1x2048x2048_S_d0_1_2_3 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S1x1x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S1x1x2048x2048 .f32 := Host.absf main_arg3
  let main_cst_4 : FVec F S_ .f32 := constant S_ .f32 0x7F800000#32
  let main_v15 : FVec F S1x1x2048x2048 .f32 := broadcastInDim S1x1x2048x2048 ![] bcast_S_S1x1x2048x2048 main_cst_4
  let main_v16 : IVec S1x1x2048x2048 1 := cmpf .olt main_v14 main_v15
  fn_part1 (F := F) main_v13 main_v16
-- ==== Kernel.lean ====
abbrev S2x16x2048x64 : Shape := ⟨4, ![2, 16, 2048, 64]⟩
abbrev S1x1x2048x2048 : Shape := ⟨4, ![1, 1, 2048, 2048]⟩
abbrev S32x2048x64 : Shape := ⟨3, ![32, 2048, 64]⟩
abbrev S1x2048x2048 : Shape := ⟨3, ![1, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S64x2048 : Shape := ⟨2, ![64, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S1x2048x2048, .f32⟩
  | .hbm, ⟨8, _⟩ => ⟨S32x2048x64, .f32⟩
  | .hbm, ⟨9, _⟩ => ⟨S2x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .f32⟩
  | .local _ .vmem, ⟨7, _⟩ => ⟨S1x512x2048, .f32⟩
  | .local _ .vmem, ⟨8, _⟩ => ⟨S1x512x64, .f32⟩
  | .local _ .vmem, ⟨9, _⟩ => ⟨S1x512x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  shapeCasts_S1x1x2048x2048_S1x2048x2048 : S1x1x2048x2048.ShapeCasts S1x2048x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S32x2048x64_S2x16x2048x64 : S32x2048x64.ShapeCasts S2x16x2048x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S1x2048x2048.size a
  hwx0_3 : ∀ i : grid0.Coords, EltTy.bits .f32 = 32 ∨ (Rect.block (s := S1x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S1x1x2048x2048 : Shape := ⟨4, ![1, 1, 2048, 2048]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S2x16x2048x2048, .f32⟩
  | .hbm, ⟨12, _⟩ => ⟨S2x16x2048x2048, .f32⟩
  | .hbm, ⟨13, _⟩ => ⟨S_, .f32⟩
  | .hbm, ⟨14, _⟩ => ⟨S2x16x2048, .f32⟩
  | .hbm, ⟨15, _⟩ => ⟨S_, .f32⟩
  | .hbm, ⟨16, _⟩ => ⟨S2x16x2048, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.LibSoftmaxRow.lean ====
/-
  One row of softmax attention on the extended reals, free of any program and of any shape.

  For a row of logits `l` over `n` keys, the row maximum is the fold of `max` over the row from an accumulator value
  `b`; the softmax weight of key `k` is `exp (l k - M) / ∑ k', exp (l k' - M)` at the ideal exponential and quotient; one
  output entry is the weights against a column of values. Two laws: taking the maximum with the accumulator's value once
  more changes nothing, and multiplication by a non-negative real number distributes over every finite sum of extended
  reals (infinite terms included), so a scale on every entry of one factor of a contraction is a scale on the contracted
  sum.
-/
import Idealize.ShloMosaic.PureOps.Ideal

noncomputable section

namespace Cert.Attn

open Idealize.ShloMosaic

/-- A row's maximum: the fold of `max` over the row, from the accumulator's value `b`. -/
def rowMax {n : ℕ} (b : EReal) (l : Fin n → EReal) : EReal :=
  (Finset.univ : Finset (Fin n)).fold max b l

/-- The softmax weight of key `k` in a row of logits `l`. -/
def weight {n : ℕ} (b : EReal) (l : Fin n → EReal) (k : Fin n) : EReal :=
  Ideal.div (Ideal.exp (l k - rowMax b l)) (∑ k' : Fin n, Ideal.exp (l k' - rowMax b l))

/-- One output entry: the softmax weights of the row against one column of values. -/
def attnRow {n : ℕ} (b : EReal) (l v : Fin n → EReal) : EReal :=
  ∑ k : Fin n, weight b l k * v k

/-- The accumulator's value is below the fold that starts from it, so taking the maximum with it again changes nothing. -/
theorem max_rowMax {n : ℕ} (b : EReal) (l : Fin n → EReal) : max b (rowMax b l) = rowMax b l :=
  max_eq_right ((Finset.le_fold_max b).mpr (Or.inl le_rfl))

/-- Multiplication by a non-negative real number distributes over a finite sum of extended reals. -/
theorem sum_mul_coe {ι : Type} (s : Finset ι) (a : ι → EReal) (r : ℝ) (hr : 0 ≤ r) :
    ∑ d ∈ s, a d * (r : EReal) = (∑ d ∈ s, a d) * (r : EReal) := by
  classical
  refine Finset.induction_on s (by simp) (fun x s hx ih => ?_)
  rw [Finset.sum_insert hx, Finset.sum_insert hx, ih,
    EReal.right_distrib_of_nonneg_of_ne_top (EReal.coe_nonneg.mpr hr) (EReal.coe_ne_top r)]

/-- Scaling every query entry before the contraction is scaling the contracted sum. -/
theorem scale_inside {n : ℕ} (q k : Fin n → EReal) (r : ℝ) (hr : 0 ≤ r) :
    ∑ d : Fin n, q d * (r : EReal) * k d = (∑ d : Fin n, q d * k d) * (r : EReal) := by
  rw [← sum_mul_coe Finset.univ (fun d => q d * k d) r hr]
  exact Finset.sum_congr rfl fun d _ => mul_right_comm _ _ _

end Cert.Attn

end
-- ==== Proof.AttnRow.lean ====
/-
  The softmax scale of scaled-dot-product attention, and attention over merged slices, on the extended reals, free of
  any program. The row function itself (row maximum, softmax weights, one output entry) and the distributive law are
  Proof/LibSoftmaxRow.lean's.

  For one query row the logits are `l k` (k running over the keys), the softmax weights are
  `exp (l k - M) / ∑ k', exp (l k' - M)` with `M` the row's maximum, and the output entry for a value column `v` is the
  weighted sum `∑ k, weight k · v k`. The row maximum is folded from an accumulator value `b` (the programs start it at
  the pattern of −∞; nothing below needs to know which value it is).

  The two programs differ only in where the softmax scale enters a logit: one multiplies every query entry by the scale
  before the contraction, `∑ d, (q d · c) · k d`, the other multiplies the contracted sum, `(∑ d, q d · k d) · c`. For a
  scale that is a non-negative real number the two agree on all extended reals: multiplication by such a number
  distributes over every sum, infinite terms included. The scale is 1/8 on both sides: the literal 0.125 on one, the
  quotient of 1 by the square root of 64 on the other.
-/
import proofs.«119305_j63891933495303_2_alg».proof.Proof.LibSoftmaxRow
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The value the row maximum is folded from: the pattern of −∞. -/
abbrev negInf : EReal := Ideal.ofBits .f32 0xFF800000#32
/-- The softmax scale spelt as the literal 0.125. -/
abbrev scale : EReal := Ideal.ofBits .f32 0x3E000000#32

/-- The literal 0.125 denotes the real number 1/8. -/
theorem ofBits_eighth : Ideal.ofBits .f32 0x3E000000#32 = ((1 / 8 : ℝ) : EReal) := by
  simp [Ideal.ofBits, Ideal.ieee, -EReal.coe_mul]; norm_num

/-- The literal 1.0 denotes the real number 1. -/
theorem ofBits_one : Ideal.ofBits .f32 0x3F800000#32 = ((1 : ℝ) : EReal) := by
  simp [Ideal.ofBits, Ideal.ieee, -EReal.coe_mul]; norm_num

/-- The literal 64.0 denotes the real number 64. -/
theorem ofBits_sixtyfour : Ideal.ofBits .f32 0x42800000#32 = ((64 : ℝ) : EReal) := by
  simp [Ideal.ofBits, Ideal.ieee, -EReal.coe_mul]; norm_num

/-- The square root of 64 is 8. -/
theorem sqrt_sixtyfour : Real.sqrt 64 = 8 := by
  rw [show (64 : ℝ) = 8 * 8 by norm_num]
  exact Real.sqrt_mul_self (by norm_num)

/-- One divided by the square root of 64 is the same extended real as the literal 0.125. -/
theorem one_div_sqrt_sixtyfour :
    Ideal.div (Ideal.ofBits .f32 0x3F800000#32) (Ideal.sqrt (Ideal.ofBits .f32 0x42800000#32))
      = Ideal.ofBits .f32 0x3E000000#32 := by
  rw [ofBits_one, ofBits_sixtyfour, ofBits_eighth, Ideal.sqrt_coe, if_neg (by norm_num), sqrt_sixtyfour,
    Ideal.div_coe (by norm_num : (8 : ℝ) ≠ 0), ← EReal.coe_mul, one_mul]

/-- The logit with the scale folded into the query is the logit with the scale on the contracted sum, when the two
    scales are the literal 0.125 and one over the square root of 64. -/
theorem logit_eq {n : ℕ} (q k : Fin n → EReal) (mk : EReal) :
    (∑ d : Fin n, q d * Ideal.ofBits .f32 0x3E000000#32 * k d) + mk
      = (∑ d : Fin n, q d * k d)
          * Ideal.div (Ideal.ofBits .f32 0x3F800000#32) (Ideal.sqrt (Ideal.ofBits .f32 0x42800000#32)) + mk := by
  rw [one_div_sqrt_sixtyfour, ofBits_eighth, scale_inside q k (1 / 8) (by norm_num)]

/-- Attention over 32 merged batch-and-head slices, with the scale folded into the queries: entry (g, q, v) is the
    softmax of the logits  l k = (∑ d, (Q (g, q, d) · 0.125) · K (g, k, d)) + M (0, q, k)  against column v of slice g of the
    values. -/
def attn3 (Q K V : (⟨3, ![32, 2048, 64]⟩ : Shape).Idx → EReal) (M : (⟨3, ![1, 2048, 2048]⟩ : Shape).Idx → EReal) :
    (⟨3, ![32, 2048, 64]⟩ : Shape).Idx → EReal := fun i =>
  attnRow negInf
    (fun k : Fin 2048 => (∑ d : Fin 64, Q (ix3 (i 0) (i 1) d) * scale * K (ix3 (i 0) k d)) + M (ix3 (0 : Fin 1) (i 1) k))
    (fun k : Fin 2048 => V (ix3 (i 0) k (i 2)))

end Cert.Attn

end
-- ==== Proof.Payload.lean ====
/-
  What the attention body stores, entry by entry, at the ideal values.

  The body loads a query tile x0 [1, 512, 64], the keys x1 [1, 2048, 64], the values x2 [1, 2048, 64] and a mask tile
  x3 [1, 512, 2048], and stores one tile [1, 512, 64]. Entry (0, r, v) of the stored tile is one entry of attention:
  the logits of row r are  l k = (∑ d, (x0 (0, r, d) · 0.125) · x1 (0, k, d)) + x3 (0, r, k),  and the entry is the softmax
  weights of that row against column v of the values. The steps: the scaled query tile; the logits (a matrix product into
  the zero accumulator against the transposed keys, plus the mask); the exponentials of the logits less their row
  maximum; their quotient by the row sum; the product with the values. Changes of float format are the identity here.
-/
import proofs.«119305_j63891933495303_2_alg».proof.Proof.Gen.KernelIdeal.Skeleton
import proofs.«119305_j63891933495303_2_alg».proof.Proof.LibMatmulAt
import proofs.«119305_j63891933495303_2_alg».proof.Proof.LibKeepdims
import proofs.«119305_j63891933495303_2_alg».proof.Proof.AttnRow
import Idealize.ShloMosaic.Lib.ValueLayout
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.ValueIdx Cert.Attn Cert.Lib.Keepdims

/-- The query tile times the scale, as a matrix [512, 64]. -/
def scaledQ (x0 : Vec Ideal S1x512x64 .f32) : FVec Ideal S512x64 .bf16 :=
  truncf .bf16 (mulf (shapeCast S512x64 x0 shapeCasts_S1x512x64_S512x64)
    (broadcast S512x64 (Scalar.ofBits .f32 0x3E000000#32))) bitsLt_bf16_f32

theorem scaledQ_apply (x0 : Vec Ideal S1x512x64 .f32) (r : Fin 512) (d : Fin 64) :
    scaledQ x0 (ix2 r d) = x0 (ix3 (0 : Fin 1) r d) * scale := by
  unfold scaledQ
  rw [truncf_apply, mulf_apply, broadcast_apply, shapeCast_1ab_ab_apply]
  rfl

/-- The keys as a matrix [64, 2048]: the transposed key tile. -/
def keysT (x1 : Vec Ideal S1x2048x64 .f32) : FVec Ideal S64x2048 .bf16 :=
  transpose S64x2048 [1, 0] (truncf .bf16 (shapeCast S2048x64 x1 shapeCasts_S1x2048x64_S2048x64) bitsLt_bf16_f32)
    transposes_S2048x64_p1_0_S64x2048

theorem keysT_apply (x1 : Vec Ideal S1x2048x64 .f32) (d : Fin 64) (k : Fin 2048) :
    keysT x1 (ix2 d k) = x1 (ix3 (0 : Fin 1) k d) := by
  unfold keysT
  rw [transpose_ix2_apply, truncf_apply, shapeCast_1ab_ab_apply]

/-- The logits tile [512, 2048]. -/
def logits (x0 : Vec Ideal S1x512x64 .f32) (x1 : Vec Ideal S1x2048x64 .f32) (x3 : Vec Ideal S1x512x2048 .f32) :
    FVec Ideal S512x2048 .f32 :=
  addf (matmul dot_S512x64_S64x2048_S512x2048_1_0_0_1_n_n none (scaledQ x0) (keysT x1)
      (constant S512x2048 .f32 0x00000000#32))
    (shapeCast S512x2048 x3 shapeCasts_S1x512x2048_S512x2048)

theorem logits_apply (x0 : Vec Ideal S1x512x64 .f32) (x1 : Vec Ideal S1x2048x64 .f32) (x3 : Vec Ideal S1x512x2048 .f32)
    (r : Fin 512) (k : Fin 2048) :
    logits x0 x1 x3 (ix2 r k)
      = (∑ d : Fin 64, x0 (ix3 (0 : Fin 1) r d) * scale * x1 (ix3 (0 : Fin 1) k d)) + x3 (ix3 (0 : Fin 1) r k) := by
  unfold logits
  rw [addf_apply, shapeCast_1ab_ab_apply]
  refine congrArg (· + x3 (ix3 (0 : Fin 1) r k)) ?_
  refine (Cert.KernelIdeal.Hand.matmul_zero_plain_apply _ rfl none (scaledQ x0) (keysT x1) (ix2 r k)).trans ?_
  refine Finset.sum_congr rfl fun d _ => ?_
  show scaledQ x0 (ix2 r d) * keysT x1 (ix2 d k) = _
  rw [scaledQ_apply, keysT_apply]

/-- The exponentials of a tile of logits less their row maximum. -/
def expTile (L : FVec Ideal S512x2048 .f32) : FVec Ideal S512x2048 .f32 :=
  exp (subf L (broadcastTo S512x2048 (shapeCast S512x1
    (multiReduction .maximumf [1] S512 L 0xFF800000#32 reduces_S512x2048_S512 (.inl rfl) rfl) shapeCasts_S512_S512x1)
    broadcasts_S512x1_S512x2048))

theorem expTile_apply (L : FVec Ideal S512x2048 .f32) (r : Fin 512) (k : Fin 2048) :
    expTile L (ix2 r k) = Ideal.exp (L (ix2 r k) - rowMax negInf (fun k' => L (ix2 r k'))) := by
  unfold expTile
  show Ideal.exp (L (ix2 r k) - broadcastTo S512x2048 _ broadcasts_S512x1_S512x2048 (ix2 r k)) = _
  rw [broadcastTo_a1_ab_apply, shapeCast_a_a1_apply]
  refine congrArg (fun z => Ideal.exp (L (ix2 r k) - z)) ?_
  exact rowMaximum_apply L 0xFF800000#32 reduces_S512x2048_S512 (.inl rfl) rfl r

/-- The softmax weights of a tile of logits. -/
def softTile (L : FVec Ideal S512x2048 .f32) : FVec Ideal S512x2048 .f32 :=
  divf (expTile L) (broadcastTo S512x2048 (shapeCast S512x1
    (multiReduction .add [1] S512 (expTile L) 0x00000000#32 reduces_S512x2048_S512 (.inl rfl) rfl) shapeCasts_S512_S512x1)
    broadcasts_S512x1_S512x2048)

theorem softTile_apply (L : FVec Ideal S512x2048 .f32) (r : Fin 512) (k : Fin 2048) :
    softTile L (ix2 r k) = weight negInf (fun k' => L (ix2 r k')) k := by
  unfold softTile weight
  rw [divf_apply, broadcastTo_a1_ab_apply, shapeCast_a_a1_apply, expTile_apply]
  refine congrArg (Ideal.div _) ?_
  refine (rowSum_apply (expTile L) 0x00000000#32 reduces_S512x2048_S512 (.inl rfl) rfl r).trans ?_
  exact Finset.sum_congr rfl fun k' _ => expTile_apply L r k'

/-- The stored tile is the product of the softmax weights with the values, with the tile's unit axis put back. -/
theorem pay_eq (x0 : Vec Ideal S1x512x64 .f32) (x1 x2 : Vec Ideal S1x2048x64 .f32) (x3 : Vec Ideal S1x512x2048 .f32) :
    k0_pay1 (F := Ideal) x0 x1 x2 x3
      = shapeCast S1x512x64 (matmul dot_S512x2048_S2048x64_S512x64_1_0_0_1_n_n none
          (truncf .bf16 (softTile (logits x0 x1 x3)) bitsLt_bf16_f32 : FVec Ideal S512x2048 .bf16)
          (truncf .bf16 (shapeCast S2048x64 x2 shapeCasts_S1x2048x64_S2048x64) bitsLt_bf16_f32 : FVec Ideal S2048x64 .bf16)
          (constant S512x64 .f32 0x00000000#32)) shapeCasts_S512x64_S1x512x64 := rfl

/-- Entry (0, r, v) of the stored tile: one entry of attention. -/
theorem pay_apply (x0 : Vec Ideal S1x512x64 .f32) (x1 x2 : Vec Ideal S1x2048x64 .f32) (x3 : Vec Ideal S1x512x2048 .f32)
    (r : Fin 512) (v : Fin 64) :
    k0_pay1 (F := Ideal) x0 x1 x2 x3 (ix3 (0 : Fin 1) r v)
      = attnRow negInf
          (fun k : Fin 2048 => (∑ d : Fin 64, x0 (ix3 (0 : Fin 1) r d) * scale * x1 (ix3 (0 : Fin 1) k d))
            + x3 (ix3 (0 : Fin 1) r k))
          (fun k : Fin 2048 => x2 (ix3 (0 : Fin 1) k v)) := by
  rw [pay_eq, shapeCast_ab_1ab_apply]
  refine (Cert.KernelIdeal.Hand.matmul_zero_plain_apply _ rfl none _ _ (ix2 r v)).trans ?_
  unfold attnRow
  refine Finset.sum_congr rfl fun k _ => ?_
  show (truncf .bf16 (softTile (logits x0 x1 x3)) bitsLt_bf16_f32 : FVec Ideal S512x2048 .bf16) (ix2 r k)
      * (truncf .bf16 (shapeCast S2048x64 x2 shapeCasts_S1x2048x64_S2048x64) bitsLt_bf16_f32 : FVec Ideal S2048x64 .bf16) (ix2 k v) = _
  rw [truncf_apply, truncf_apply, shapeCast_1ab_ab_apply, softTile_apply]
  have hl : (fun k' : Fin 2048 => logits x0 x1 x3 (ix2 r k'))
      = fun k' : Fin 2048 => (∑ d : Fin 64, x0 (ix3 (0 : Fin 1) r d) * scale * x1 (ix3 (0 : Fin 1) k' d))
          + x3 (ix3 (0 : Fin 1) r k') := funext fun k' => logits_apply x0 x1 x3 r k'
  rw [hl]

end Cert.KernelIdeal.Pay

end
-- ==== Proof.Region.lean ====
/-
  The array the attention region leaves, as one function of the arrays it finds.

  The grid has 4 × 32 points; point (qi, g) stages rows 512·qi … 512·qi + 511 of slice g of the queries, all of slice g of
  the keys and of the values, rows 512·qi … of the mask, and writes back rows 512·qi … of slice g of the output. Entry
  (0, r, v) of the tile the body stores there is attention entry (g, 512·qi + r, v) of the arrays (the stored tile entry by
  entry is the payload's reading; each staged block entry is the array's entry at the block's offset). The 128 output
  blocks tile the output array, so after the region the array is that function everywhere.
-/
import proofs.«119305_j63891933495303_2_alg».proof.Proof.Gen.KernelIdeal.Frame
import proofs.«119305_j63891933495303_2_alg».proof.Proof.Payload
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The block indices of the five windows at a point, against the output's: the queries move with the output on the
    slice and row axes, the keys and values on the slice axis only, the mask on the row axis only. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = 0 ∧ win0_3.index t (1 : Fin 3) = win0_4.index t (1 : Fin 3) ∧ win0_3.index t (2 : Fin 3) = 0
    ∧ win0_4.index t (2 : Fin 3) = 0 ∧ win0_4.index t (0 : Fin 3) ≤ 31 ∧ win0_4.index t (1 : Fin 3) ≤ 3 :=
  (by decide +kernel : ∀ t : Fin grid0.N, _)

/-- Every output block is some point's. -/
theorem idx_onto : ∀ (g : Fin 32) (qi : Fin 4), ∃ t : Fin cfg0.N, win0_4.index t = ![g.val, qi.val, 0] :=
  (by decide +kernel : ∀ (g : Fin 32) (qi : Fin 4), ∃ t : Fin grid0.N, win0_4.index t = ![g.val, qi.val, 0])

/-- Entry (0, r, d) of the query block at a point is the query array's entry at the block's offset. -/
theorem read0 (c : Dev nD) (t : Fin cfg0.N) (r : Fin 512) (d : Fin 64) (g : Fin 32) (q : Fin 2048)
    (hg : g.val = win0_4.index t (0 : Fin 3)) (hq : q.val = win0_4.index t (1 : Fin 3) * 512 + r.val) :
    iblk m c 0 t (ix3 (0 : Fin 1) r d) = V m c main_v0 (ix3 g q d) := by
  obtain ⟨e0, e1, e2, -⟩ := idx_facts t
  show V m c main_v0 (((cfg0.win 0).blk t).view.emb (ix3 (0 : Fin 1) r d)) = V m c main_v0 (ix3 g q d)
  refine congrArg (V m c main_v0) (funext fun a => Fin.ext ?_)
  match a with
  | ⟨0, _⟩ => show win0_0.index t (0 : Fin 3) * 1 + 1 * 0 = g.val; omega
  | ⟨1, _⟩ => show win0_0.index t (1 : Fin 3) * 512 + 1 * r.val = q.val; omega
  | ⟨2, _⟩ => show win0_0.index t (2 : Fin 3) * 64 + 1 * d.val = d.val; omega

/-- Entry (0, k, d) of the key block at a point is entry (g, k, d) of the key array. -/
theorem read1 (c : Dev nD) (t : Fin cfg0.N) (k : Fin 2048) (d : Fin 64) (g : Fin 32)
    (hg : g.val = win0_4.index t (0 : Fin 3)) :
    iblk m c 1 t (ix3 (0 : Fin 1) k d) = V m c main_v1 (ix3 g k d) := by
  obtain ⟨-, -, -, e0, e1, e2, -⟩ := idx_facts t
  show V m c main_v1 (((cfg0.win 1).blk t).view.emb (ix3 (0 : Fin 1) k d)) = V m c main_v1 (ix3 g k d)
  refine congrArg (V m c main_v1) (funext fun a => Fin.ext ?_)
  match a with
  | ⟨0, _⟩ => show win0_1.index t (0 : Fin 3) * 1 + 1 * 0 = g.val; omega
  | ⟨1, _⟩ => show win0_1.index t (1 : Fin 3) * 2048 + 1 * k.val = k.val; omega
  | ⟨2, _⟩ => show win0_1.index t (2 : Fin 3) * 64 + 1 * d.val = d.val; omega

/-- Entry (0, k, v) of the value block at a point is entry (g, k, v) of the value array. -/
theorem read2 (c : Dev nD) (t : Fin cfg0.N) (k : Fin 2048) (v : Fin 64) (g : Fin 32)
    (hg : g.val = win0_4.index t (0 : Fin 3)) :
    iblk m c 2 t (ix3 (0 : Fin 1) k v) = V m c main_v2 (ix3 g k v) := by
  obtain ⟨-, -, -, -, -, -, e0, e1, e2, -⟩ := idx_facts t
  show V m c main_v2 (((cfg0.win 2).blk t).view.emb (ix3 (0 : Fin 1) k v)) = V m c main_v2 (ix3 g k v)
  refine congrArg (V m c main_v2) (funext fun a => Fin.ext ?_)
  match a with
  | ⟨0, _⟩ => show win0_2.index t (0 : Fin 3) * 1 + 1 * 0 = g.val; omega
  | ⟨1, _⟩ => show win0_2.index t (1 : Fin 3) * 2048 + 1 * k.val = k.val; omega
  | ⟨2, _⟩ => show win0_2.index t (2 : Fin 3) * 64 + 1 * v.val = v.val; omega

/-- Entry (0, r, k) of the mask block at a point is the mask array's entry at the block's row offset. -/
theorem read3 (c : Dev nD) (t : Fin cfg0.N) (r : Fin 512) (k : Fin 2048) (q : Fin 2048)
    (hq : q.val = win0_4.index t (1 : Fin 3) * 512 + r.val) :
    iblk m c 3 t (ix3 (0 : Fin 1) r k) = V m c main_v3 (ix3 (0 : Fin 1) q k) := by
  obtain ⟨-, -, -, -, -, -, -, -, -, e0, e1, e2, -⟩ := idx_facts t
  show V m c main_v3 (((cfg0.win 3).blk t).view.emb (ix3 (0 : Fin 1) r k)) = V m c main_v3 (ix3 (0 : Fin 1) q k)
  refine congrArg (V m c main_v3) (funext fun a => Fin.ext ?_)
  match a with
  | ⟨0, _⟩ => show win0_3.index t (0 : Fin 3) * 1 + 1 * 0 = 0; omega
  | ⟨1, _⟩ => show win0_3.index t (1 : Fin 3) * 512 + 1 * r.val = q.val; omega
  | ⟨2, _⟩ => show win0_3.index t (2 : Fin 3) * 2048 + 1 * k.val = k.val; omega

/-- Where entry (0, r, v) of the output block at a point sits in the output array. -/
theorem emb4 (t : Fin cfg0.N) (r : Fin 512) (v : Fin 64) (g : Fin 32) (q : Fin 2048)
    (hg : g.val = win0_4.index t (0 : Fin 3)) (hq : q.val = win0_4.index t (1 : Fin 3) * 512 + r.val) :
    ((cfg0.win 4).blk t).view.emb (ix3 (0 : Fin 1) r v) = ix3 g q v := by
  obtain ⟨-, -, -, -, -, -, -, -, -, -, -, -, e2, -⟩ := idx_facts t
  refine funext fun a => Fin.ext ?_
  match a with
  | ⟨0, _⟩ => show win0_4.index t (0 : Fin 3) * 1 + 1 * 0 = g.val; omega
  | ⟨1, _⟩ => show win0_4.index t (1 : Fin 3) * 512 + 1 * r.val = q.val; omega
  | ⟨2, _⟩ => show win0_4.index t (2 : Fin 3) * 64 + 1 * v.val = v.val; omega

/-- The tile the body stores at a point, at (0, r, v), is attention entry (g, q, v) of the arrays the region finds, for
    g the point's slice and q the row 512·qi + r. -/
theorem tile_apply (c : Dev nD) (t : Fin cfg0.N) (r : Fin 512) (v : Fin 64) (g : Fin 32) (q : Fin 2048)
    (hg : g.val = win0_4.index t (0 : Fin 3)) (hq : q.val = win0_4.index t (1 : Fin 3) * 512 + r.val) :
    k0_pay1 (F := Ideal) (iblk m c 0 t) (iblk m c 1 t) (iblk m c 2 t) (iblk m c 3 t) (ix3 (0 : Fin 1) r v)
      = attn3 (V m c main_v0) (V m c main_v1) (V m c main_v2) (V m c main_v3) (ix3 g q v) := by
  refine (Pay.pay_apply (iblk m c 0 t) (iblk m c 1 t) (iblk m c 2 t) (iblk m c 3 t) r v).trans ?_
  unfold attn3
  refine congrArg₂ (attnRow negInf) (funext fun k => ?_) (funext fun k => read2 m c t k v g hg)
  refine congrArg₂ (· + ·) (Finset.sum_congr rfl fun d _ => ?_) (read3 m c t r k q hq)
  rw [read0 m c t r d g q hg hq, read1 m c t k d g hg]

/-- The stored tile at a point, entry by entry, is the attention function read where the output block sits. -/
theorem tile_eq (c : Dev nD) (t : Fin cfg0.N) (j : S1x512x64.Idx) :
    k0_pay1 (F := Ideal) (iblk m c 0 t) (iblk m c 1 t) (iblk m c 2 t) (iblk m c 3 t) j
      = attn3 (V m c main_v0) (V m c main_v1) (V m c main_v2) (V m c main_v3) (((cfg0.win 4).blk t).view.emb j) := by
  obtain ⟨u, r, v, rfl⟩ : ∃ (u : Fin 1) (r : Fin 512) (v : Fin 64), j = ix3 u r v := ⟨j 0, j 1, j 2, eq_ix3 j⟩
  obtain rfl : u = 0 := Subsingleton.elim _ _
  obtain ⟨-, -, -, -, -, -, -, -, -, -, -, -, -, b0, b1⟩ := idx_facts t
  have hr : r.val < 512 := r.isLt
  rw [emb4 t r v ⟨win0_4.index t (0 : Fin 3), by omega⟩ ⟨win0_4.index t (1 : Fin 3) * 512 + r.val, by omega⟩ rfl rfl]
  exact tile_apply m c t r v _ _ rfl rfl

/-- WHAT A POINT WRITES BACK is its block of the attention function of the arrays the region finds. -/
theorem flushed_eq (c : Dev nD) (t : Fin cfg0.N) :
    (dats m 0 c).flushed 4 t
      = ((cfg0.win 4).blk t).view.read (Elt Ideal) (attn3 (V m c main_v0) (V m c main_v1) (V m c main_v2) (V m c main_v3)) := by
  show (cfg0.win 4).cut (grid0.coords t) ((dats m 0 c).after 4 t) = _
  rw [after0_4]
  unfold out0_4
  rw [View.canon_unit_zero zero_offsets]
  simp only [View.ld_unit_zero (S := S1x512x64) zero_offsets, View.ld_unit_zero (S := S1x2048x64) zero_offsets,
    View.ld_unit_zero (S := S1x512x2048) zero_offsets]
  funext j
  exact tile_eq m c t j

/-- An index of the output array is in a point's block iff each coordinate is in the block's range on its axis. -/
theorem mem_blk (t : Fin cfg0.N) (i : S32x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v4).slice (win0_4.rect t)).set ↔ _
  rw [View.set_slice_whole, Rect.mem_set_unit]
  exact Iff.rfl

/-- Every index of the output array is in the block of the point of its slice and of its row's group of 512. -/
theorem cover (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE OUTPUT ARRAY after the region is the attention function of the arrays the region finds. -/
theorem final (c : Dev nD) :
    (dats m 0 c).arrAt 4 cfg0.N = attn3 (V m c main_v0) (V m c main_v1) (V m c main_v2) (V m c main_v3) :=
  (dats m 0 c).arrAt_eq_of_cover 4 _ (fun t _ => flushed_eq m c t) cover

end Cert.KernelIdeal.Region

end
-- ==== Proof.Merge.lean ====
/-
  The batch and head axes merged into one, read at an index. An array [2, 16, n, p] reshaped to [32, n, p] keeps its
  row-major order, so entry (g, q, d) of the reshaped array is entry (b, h, q, d) of the original whenever g = 16·b + h;
  the reshape back reads the other way. Nothing here depends on a program.
-/
import Idealize.ShloMosaic.Lib.Pipeline.Value
import Idealize.ShloMosaic.Lib.ValueIdx

namespace Cert.Attn

open Idealize.ShloMosaic Idealize.ShloMosaic.ValueIdx

variable {α : Type}

/-- The merged coordinate of batch `b` and head `h`. -/
def mergeBH (b : Fin 2) (h : Fin 16) : Fin 32 := ⟨b.val * 16 + h.val, by have := b.isLt; have := h.isLt; omega⟩

theorem mergeBH_val (b : Fin 2) (h : Fin 16) : (mergeBH b h).val = b.val * 16 + h.val := rfl

/-- The batch of a merged coordinate. -/
def batchOf (g : Fin 32) : Fin 2 := ⟨g.val / 16, by have := g.isLt; omega⟩
/-- The head of a merged coordinate. -/
def headOf (g : Fin 32) : Fin 16 := ⟨g.val % 16, by omega⟩

theorem merge_split (g : Fin 32) : g.val = (batchOf g).val * 16 + (headOf g).val := by
  show g.val = g.val / 16 * 16 + g.val % 16
  omega

/-- [2, 16, n, p] reshaped to [32, n, p]: entry (g, q, d) is entry (b, h, q, d) when g = 16·b + h. -/
theorem shapeCast_merge_apply {n p : ℕ} (x : (⟨4, ![2, 16, n, p]⟩ : Shape).Idx → α)
    (hc : (⟨4, ![2, 16, n, p]⟩ : Shape).ShapeCasts ⟨3, ![32, n, p]⟩) (b : Fin 2) (h : Fin 16) (q : Fin n) (d : Fin p)
    (g : Fin 32) (hg : g.val = b.val * 16 + h.val) :
    shapeCast ⟨3, ![32, n, p]⟩ x hc (ix3 g q d) = x (ix4 b h q d) :=
  shapeCast_apply x hc _ _ (by
    rw [Shape.rowMajor_val_four, Shape.rowMajor_val_three]
    show ((b.val * 16 + h.val) * n + q.val) * p + d.val = (g.val * n + q.val) * p + d.val
    rw [hg])

/-- [32, n, p] reshaped to [2, 16, n, p]: entry (b, h, q, d) is entry (g, q, d) when g = 16·b + h. -/
theorem shapeCast_split_apply {n p : ℕ} (y : (⟨3, ![32, n, p]⟩ : Shape).Idx → α)
    (hc : (⟨3, ![32, n, p]⟩ : Shape).ShapeCasts ⟨4, ![2, 16, n, p]⟩) (b : Fin 2) (h : Fin 16) (q : Fin n) (d : Fin p)
    (g : Fin 32) (hg : g.val = b.val * 16 + h.val) :
    shapeCast ⟨4, ![2, 16, n, p]⟩ y hc (ix4 b h q d) = y (ix3 g q d) :=
  shapeCast_apply y hc _ _ (by
    rw [Shape.rowMajor_val_four, Shape.rowMajor_val_three]
    show (g.val * n + q.val) * p + d.val = ((b.val * 16 + h.val) * n + q.val) * p + d.val
    rw [hg])

end Cert.Attn
-- ==== Proof.Attn4.lean ====
/-
  Attention over a [2, 16, 2048, 64] batch of heads, and the same computed slice by slice after the batch and head axes
  are merged. Entry (b, h, q, v) of the result is the softmax of the logits
  l k = (∑ d, (Q (b, h, q, d) · 0.125) · K (b, h, k, d)) + M (0, 0, q, k)  against column v of V (b, h, ·, ·).
  Reshaping the three operands to [32, 2048, 64] and the mask to [1, 2048, 2048], computing slice by slice, and reshaping
  the result back gives the same array: a reshape keeps the row-major order, and slice 16·b + h of a merged operand is
  head h of batch b. Nothing here depends on a program.
-/
import proofs.«119305_j63891933495303_2_alg».proof.Proof.AttnRow
import proofs.«119305_j63891933495303_2_alg».proof.Proof.Merge
import Idealize.ShloMosaic.Lib.ValueLayout

noncomputable section

namespace Cert.Attn

open Idealize.ShloMosaic Idealize.ShloMosaic.ValueIdx

/-- Attention with the scale folded into the queries, over the batch and head axes. -/
def attn4 (Q K V : (⟨4, ![2, 16, 2048, 64]⟩ : Shape).Idx → EReal) (M : (⟨4, ![1, 1, 2048, 2048]⟩ : Shape).Idx → EReal) :
    (⟨4, ![2, 16, 2048, 64]⟩ : Shape).Idx → EReal := fun i =>
  attnRow negInf
    (fun k : Fin 2048 => (∑ d : Fin 64, Q (ix4 (i 0) (i 1) (i 2) d) * scale * K (ix4 (i 0) (i 1) k d))
      + M (ix4 (0 : Fin 1) (0 : Fin 1) (i 2) k))
    (fun k : Fin 2048 => V (ix4 (i 0) (i 1) k (i 3)))

/-- Merging the batch and head axes, computing slice by slice and splitting the axes again is attention over the batch
    of heads. -/
theorem split_attn3_merge (Q K V : (⟨4, ![2, 16, 2048, 64]⟩ : Shape).Idx → EReal)
    (M : (⟨4, ![1, 1, 2048, 2048]⟩ : Shape).Idx → EReal)
    (h3 : (⟨4, ![2, 16, 2048, 64]⟩ : Shape).ShapeCasts ⟨3, ![32, 2048, 64]⟩)
    (hm : (⟨4, ![1, 1, 2048, 2048]⟩ : Shape).ShapeCasts ⟨3, ![1, 2048, 2048]⟩)
    (h4 : (⟨3, ![32, 2048, 64]⟩ : Shape).ShapeCasts ⟨4, ![2, 16, 2048, 64]⟩) :
    shapeCast ⟨4, ![2, 16, 2048, 64]⟩
        (attn3 (shapeCast ⟨3, ![32, 2048, 64]⟩ Q h3) (shapeCast ⟨3, ![32, 2048, 64]⟩ K h3)
          (shapeCast ⟨3, ![32, 2048, 64]⟩ V h3) (shapeCast ⟨3, ![1, 2048, 2048]⟩ M hm)) h4
      = attn4 Q K V M := by
  funext i
  obtain ⟨b, h, q, v, rfl⟩ : ∃ (b : Fin 2) (h : Fin 16) (q : Fin 2048) (v : Fin 64), i = ix4 b h q v :=
    ⟨i 0, i 1, i 2, i 3, eq_ix4 i⟩
  rw [shapeCast_split_apply _ h4 b h q v (mergeBH b h) rfl]
  show attnRow negInf
      (fun k : Fin 2048 => (∑ d : Fin 64, shapeCast ⟨3, ![32, 2048, 64]⟩ Q h3 (ix3 (mergeBH b h) q d) * scale
          * shapeCast ⟨3, ![32, 2048, 64]⟩ K h3 (ix3 (mergeBH b h) k d))
        + shapeCast ⟨3, ![1, 2048, 2048]⟩ M hm (ix3 (0 : Fin 1) q k))
      (fun k : Fin 2048 => shapeCast ⟨3, ![32, 2048, 64]⟩ V h3 (ix3 (mergeBH b h) k v))
    = attnRow negInf
      (fun k : Fin 2048 => (∑ d : Fin 64, Q (ix4 b h q d) * scale * K (ix4 b h k d)) + M (ix4 (0 : Fin 1) (0 : Fin 1) q k))
      (fun k : Fin 2048 => V (ix4 b h k v))
  refine congrArg₂ (attnRow negInf) (funext fun k => ?_)
    (funext fun k => shapeCast_merge_apply V h3 b h k v (mergeBH b h) rfl)
  refine congrArg₂ (· + ·) (Finset.sum_congr rfl fun d _ => ?_) (shapeCast_1abc_abc_apply M hm (0 : Fin 1) q k)
  rw [shapeCast_merge_apply Q h3 b h q d (mergeBH b h) rfl, shapeCast_merge_apply K h3 b h k d (mergeBH b h) rfl]

end Cert.Attn

end
-- ==== Proof.KernelRun.lean ====
/-
  The kernel's program, run: its result array is attention over the batch of heads of its argument arrays.

  Before the region the program merges the batch and head axes of the three operands ([2, 16, 2048, 64] to
  [32, 2048, 64]) and drops a unit axis of the mask; the region leaves the attention function of those arrays in its output
  array; after the region the program splits the merged axis of that array again. The reshapes keep the row-major order, so
  the result is attention over the batch of heads of the arguments. The arguments themselves end unchanged.
-/
import proofs.«119305_j63891933495303_2_alg».proof.Proof.Region
import proofs.«119305_j63891933495303_2_alg».proof.Proof.Attn4
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.ValueIdx Cert.Attn Idealize.ShloMosaic.StableHlo
open Idealize.ShloMosaic.Pipeline (Dat)

variable (m : (ℓ : Loc nD τ sig) → Buf (Elt Ideal) ℓ) (ρ : Dev nD → PrngReg)

/-- The queries as the region finds them: the first argument with its batch and head axes merged. -/
theorem V_v0 (c : Dev nD) :
    V m c main_v0 = shapeCast S32x2048x64 (m ((c : Thread nD τ).loc main_arg0)) shapeCasts_S2x16x2048x64_S32x2048x64 := by
  show StableHlo.after hostOps0 (fun b => m (c, b)) (Proc.devRef .tc main_v0) = _
  after_results
  rfl

/-- The keys as the region finds them: the second argument with its batch and head axes merged. -/
theorem V_v1 (c : Dev nD) :
    V m c main_v1 = shapeCast S32x2048x64 (m ((c : Thread nD τ).loc main_arg1)) shapeCasts_S2x16x2048x64_S32x2048x64 := by
  show StableHlo.after hostOps0 (fun b => m (c, b)) (Proc.devRef .tc main_v1) = _
  after_results
  rfl

/-- The values as the region finds them: the third argument with its batch and head axes merged. -/
theorem V_v2 (c : Dev nD) :
    V m c main_v2 = shapeCast S32x2048x64 (m ((c : Thread nD τ).loc main_arg2)) shapeCasts_S2x16x2048x64_S32x2048x64 := by
  show StableHlo.after hostOps0 (fun b => m (c, b)) (Proc.devRef .tc main_v2) = _
  after_results
  rfl

/-- The mask as the region finds it: the fourth argument less a unit axis. -/
theorem V_v3 (c : Dev nD) :
    V m c main_v3 = shapeCast S1x2048x2048 (m ((c : Thread nD τ).loc main_arg3)) shapeCasts_S1x1x2048x2048_S1x2048x2048 := by
  show StableHlo.after hostOps0 (fun b => m (c, b)) (Proc.devRef .tc main_v3) = _
  after_results
  rfl

/-- The program's result after the region: the region's output array with its merged axis split. -/
theorem tail_v5 (c : Dev nD) :
    Pipeline.afterTail₀ cfgs (dats m) 0 (V0 m) [hostOps1] c main_v5
      = shapeCast S2x16x2048x64 ((dats m 0 c).arrAt 4 cfg0.N) shapeCasts_S32x2048x64_S2x16x2048x64 := by
  unfold Pipeline.afterTail₀
  show StableHlo.after hostOps1 _ (Proc.devRef .tc main_v5) = _
  after_results
  show shapeCast S2x16x2048x64 (Pipeline.withArrays spec0 c (V0 m c) (fun w => (dats m 0 c).arrAt w cfg0.N)
      (Proc.devRef .tc (Pipeline.arrRef spec0 4))) shapeCasts_S32x2048x64_S2x16x2048x64 = _
  rw [Pipeline.withArrays_arr spec0 launch0.win.arr_inj]

/-- The program's result is attention over the batch of heads of its arguments. -/
theorem result_eq (c : Dev nD) :
    Pipeline.afterTail₀ cfgs (dats m) 0 (V0 m) [hostOps1] c main_v5
      = attn4 (m ((c : Thread nD τ).loc main_arg0)) (m ((c : Thread nD τ).loc main_arg1))
          (m ((c : Thread nD τ).loc main_arg2)) (m ((c : Thread nD τ).loc main_arg3)) := by
  rw [tail_v5, Region.final, V_v0, V_v1, V_v2, V_v3]
  exact split_attn3_merge _ _ _ _ _ _ _

/-- Every weakly fair execution of the kernel's program terminates with the result array at attention over the batch
    of heads of the argument arrays, and the arguments unchanged. -/
theorem run : θ_run defs (onTc (τ := τ) (main (F := Ideal))) ⟨m, fun _ => 0, ρ⟩ fun r => ∀ c : Dev nD,
      r.2.mem ((c.tc : Thread nD τ).loc main_v5)
        = attn4 (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefRow.lean ====
/-
  The reference's result, entry by entry: attention over the batch of heads with the scale on the contracted sum.

  Read one operation at a time: the logits are the contraction of a query row with a key row times the scale
  1 / sqrt 64, plus the mask entry; the row maximum is the fold of max over the row from the initial value, taken once more
  against that value (which changes nothing); the weights are the exponentials of the logits less the maximum over
  their row sum from zero; the result entry is the weights against a column of the values. Since the scale 1 / sqrt 64
  is the non-negative real 1/8, it may be moved onto every query entry: the reference computes the attention function
  the kernel's program computes.
-/
import proofs.«119305_j63891933495303_2_alg».proof.Proof.Gen.ReferenceIdeal.Read
import proofs.«119305_j63891933495303_2_alg».proof.Proof.Attn4

noncomputable section

namespace Cert.ReferenceIdeal.Row

open Cert.ReferenceIdeal Cert.ReferenceIdeal.Gen Cert.ReferenceIdeal.Read Idealize.ShloMosaic Idealize.ShloMosaic.ValueIdx
open Cert.Attn

variable (Q K V : (⟨S2x16x2048x64, .f32⟩ : BufTy).Contents (Elt Ideal))
  (Mk : (⟨S1x1x2048x2048, .f32⟩ : BufTy).Contents (Elt Ideal))

/-- The softmax scale as the reference spells it. -/
abbrev scaleRef : EReal := Ideal.div (Ideal.ofBits .f32 0x3F800000#32) (Ideal.sqrt (Ideal.ofBits .f32 0x42800000#32))

/-- A logit. -/
theorem logit_apply (b : Fin 2) (h : Fin 16) (q k : Fin 2048) :
    val_main_v6 (F := Ideal) Q K Mk (ix4 b h q k)
      = (∑ d : Fin 64, Q (ix4 b h q d) * K (ix4 b h k d)) * scaleRef + Mk (ix4 (0 : Fin 1) (0 : Fin 1) q k) := by
  have el : ∀ d : Fin 64, lidx_main_v2 (ix4 b h q k) d = ix4 b h q d := fun d => funext fun a => Fin.ext (by
    match a with | ⟨0, _⟩ => rfl | ⟨1, _⟩ => rfl | ⟨2, _⟩ => rfl | ⟨3, _⟩ => rfl)
  have er : ∀ d : Fin 64, ridx_main_v2 (ix4 b h q k) d = ix4 b h k d := fun d => funext fun a => Fin.ext (by
    match a with | ⟨0, _⟩ => rfl | ⟨1, _⟩ => rfl | ⟨2, _⟩ => rfl | ⟨3, _⟩ => rfl)
  have e5 : idx_main_v5 (ix4 b h q k) = ix4 (0 : Fin 1) (0 : Fin 1) q k := funext fun a => Fin.ext (by
    match a with | ⟨0, _⟩ => rfl | ⟨1, _⟩ => rfl | ⟨2, _⟩ => rfl | ⟨3, _⟩ => rfl)
  rw [val_main_v6_apply, val_main_v4_apply, val_main_v2_apply, val_main_v3_apply, val_main_v1_apply, val_main_v0_apply,
    val_main_cst_apply, val_main_cst_0_apply, val_main_v5_apply, e5]
  simp only [el, er]
  rfl

/-- The row maximum the reference subtracts. -/
theorem rowmax_apply (b : Fin 2) (h : Fin 16) (q : Fin 2048) :
    val_main_v9 (F := Ideal) Q K Mk (ix3 b h q)
      = rowMax negInf (fun k : Fin 2048 => val_main_v6 (F := Ideal) Q K Mk (ix4 b h q k)) := by
  have hR : S2x16x2048x2048.Reduces [3] S2x16x2048 := by decide
  have e7 : val_main_v7 (F := Ideal) Q K Mk (ix3 b h q)
      = rowMax negInf (fun k : Fin 2048 => val_main_v6 (F := Ideal) Q K Mk (ix4 b h q k)) := by
    unfold val_main_v7
    refine (Host.reduce_eq_fold_single (FloatOps.maximumf (F := Ideal) (φ := .f32))
      (val_main_v6 (F := Ideal) Q K Mk : S2x16x2048x2048.Idx → Ideal .f32) (val_main_cst_1 (F := Ideal) : S_.Idx → Ideal .f32)
      reducesTo_S2x16x2048x2048_S2x16x2048_d3 hR h_S_ (ix3 b h q)).trans ?_
    show (Finset.univ : Finset (Fin 2048)).fold max negInf
        (fun k => val_main_v6 (F := Ideal) Q K Mk (hR.lift (ix3 b h q) k)) = _
    unfold rowMax
    refine Finset.fold_congr fun (k : Fin 2048) _ => congrArg (val_main_v6 (F := Ideal) Q K Mk) ?_
    exact funext fun a => Fin.ext (by
      match a with | ⟨0, _⟩ => rfl | ⟨1, _⟩ => rfl | ⟨2, _⟩ => rfl | ⟨3, _⟩ => rfl)
  rw [val_main_v9_apply, val_main_v8_apply, val_main_cst_2_apply, e7]
  exact max_rowMax negInf _

/-- An exponential of a logit less its row's maximum. -/
theorem exp_apply (b : Fin 2) (h : Fin 16) (q k : Fin 2048) :
    val_main_v13 (F := Ideal) Q K Mk (ix4 b h q k)
      = Ideal.exp (val_main_v6 (F := Ideal) Q K Mk (ix4 b h q k)
          - rowMax negInf (fun k' : Fin 2048 => val_main_v6 (F := Ideal) Q K Mk (ix4 b h q k'))) := by
  have e : idx_main_v10 (idx_main_v11 (ix4 b h q k)) = ix3 b h q := funext fun a => Fin.ext (by
    match a with | ⟨0, _⟩ => rfl | ⟨1, _⟩ => rfl | ⟨2, _⟩ => rfl)
  rw [val_main_v13_apply, val_main_v12_apply, val_main_v11_apply, val_main_v10_apply, e, rowmax_apply]
  rfl

/-- A softmax weight. -/
theorem weight_apply (b : Fin 2) (h : Fin 16) (q k : Fin 2048) :
    val_main_v17 (F := Ideal) Q K Mk (ix4 b h q k)
      = weight negInf (fun k' : Fin 2048 => val_main_v6 (F := Ideal) Q K Mk (ix4 b h q k')) k := by
  have e : idx_main_v15 (idx_main_v16 (ix4 b h q k)) = ix3 b h q := funext fun a => Fin.ext (by
    match a with | ⟨0, _⟩ => rfl | ⟨1, _⟩ => rfl | ⟨2, _⟩ => rfl)
  have e14 : ∀ k' : Fin 2048, idx_main_v14 (ix3 b h q) k' = ix4 b h q k' := fun k' => funext fun a => Fin.ext (by
    match a with | ⟨0, _⟩ => rfl | ⟨1, _⟩ => rfl | ⟨2, _⟩ => rfl | ⟨3, _⟩ => rfl)
  rw [val_main_v17_apply, val_main_v16_apply, val_main_v15_apply, e, val_main_v14_apply, val_main_cst_3_apply, exp_apply]
  simp only [e14, exp_apply]
  unfold weight
  show Ideal.div _ (Ideal.ofBits .f32 0x00000000#32 + _) = _
  rw [Ideal.ofBits_zero_f32, zero_add]

/-- An entry of the reference's result, with the scale on the contracted sum. -/
theorem result_apply (b : Fin 2) (h : Fin 16) (q : Fin 2048) (v : Fin 64) :
    val_main_v18 (F := Ideal) Q K V Mk (ix4 b h q v)
      = attnRow negInf
          (fun k : Fin 2048 => (∑ d : Fin 64, Q (ix4 b h q d) * K (ix4 b h k d)) * scaleRef
            + Mk (ix4 (0 : Fin 1) (0 : Fin 1) q k))
          (fun k : Fin 2048 => V (ix4 b h k v)) := by
  have el : ∀ k : Fin 2048, lidx_main_v18 (ix4 b h q v) k = ix4 b h q k := fun k => funext fun a => Fin.ext (by
    match a with | ⟨0, _⟩ => rfl | ⟨1, _⟩ => rfl | ⟨2, _⟩ => rfl | ⟨3, _⟩ => rfl)
  have er : ∀ k : Fin 2048, ridx_main_v18 (ix4 b h q v) k = ix4 b h k v := fun k => funext fun a => Fin.ext (by
    match a with | ⟨0, _⟩ => rfl | ⟨1, _⟩ => rfl | ⟨2, _⟩ => rfl | ⟨3, _⟩ => rfl)
  have hl : (fun k' : Fin 2048 => val_main_v6 (F := Ideal) Q K Mk (ix4 b h q k'))
      = fun k' : Fin 2048 => (∑ d : Fin 64, Q (ix4 b h q d) * K (ix4 b h k' d)) * scaleRef
          + Mk (ix4 (0 : Fin 1) (0 : Fin 1) q k') := funext fun k' => logit_apply Q K Mk b h q k'
  rw [val_main_v18_apply]
  unfold attnRow
  refine Finset.sum_congr rfl fun k _ => ?_
  rw [el, er, weight_apply, hl]

/-- The reference's result is attention over the batch of heads with the scale folded into the queries. -/
theorem result_eq : val_main_v18 (F := Ideal) Q K V Mk = attn4 Q K V Mk := by
  funext i
  obtain ⟨b, h, q, v, rfl⟩ : ∃ (b : Fin 2) (h : Fin 16) (q : Fin 2048) (v : Fin 64), i = ix4 b h q v :=
    ⟨i 0, i 1, i 2, i 3, eq_ix4 i⟩
  rw [result_apply]
  show _ = attnRow negInf
      (fun k : Fin 2048 => (∑ d : Fin 64, Q (ix4 b h q d) * scale * K (ix4 b h k d)) + Mk (ix4 (0 : Fin 1) (0 : Fin 1) q k))
      (fun k : Fin 2048 => V (ix4 b h k v))
  refine congrArg (fun l => attnRow negInf l (fun k : Fin 2048 => V (ix4 b h k v))) (funext fun k => ?_)
  exact (logit_eq (fun d : Fin 64 => Q (ix4 b h q d)) (fun d : Fin 64 => K (ix4 b h k d)) _).symm

end Cert.ReferenceIdeal.Row

end
-- ==== Proof.lean ====
/-
  Scaled-dot-product attention: the kernel's program and its reference compute the same array on the extended reals.

  Both programs take queries, keys and values [2, 16, 2048, 64] and an additive mask [1, 1, 2048, 2048]. The kernel's
  program merges the batch and head axes, runs one region over 4 × 32 grid points — each computing a [512, 64] tile of
  softmax((Q · 0.125) Kᵀ + mask) V for one merged slice — and splits the merged axis again; the reference contracts
  Q with K over the batch of heads, scales the logits by 1 / sqrt 64, adds the mask, takes the softmax and contracts with V.
  Entry by entry both are the softmax weights of a row of logits against a column of values (Proof/AttnRow.lean); the
  kernel's side is read off its region's blocks (Proof/Payload.lean, Proof/Region.lean, Proof/KernelRun.lean), the
  reference's off its operations one at a time (Proof/RefRow.lean); the one law between them is that multiplication by the
  non-negative real 1/8 distributes over a sum of extended reals, so the scale may sit on each query entry or on the
  contracted sum. No input needs to be finite for that. The idealization rewrote nothing, so the kernel's idealized program
  is its own text read at the ideal values.
-/
import proofs.«119305_j63891933495303_2_alg».proof.Defs
import proofs.«119305_j63891933495303_2_alg».proof.Proof.Gen.Kernel
import proofs.«119305_j63891933495303_2_alg».proof.Proof.Gen.Kernel.Frame
import proofs.«119305_j63891933495303_2_alg».proof.Proof.Gen.KernelIdeal
import proofs.«119305_j63891933495303_2_alg».proof.Proof.Gen.KernelIdeal.Frame
import proofs.«119305_j63891933495303_2_alg».proof.Proof.Gen.ReferenceIdeal
import proofs.«119305_j63891933495303_2_alg».proof.Proof.Gen.Pre_finite_inputs
import proofs.«119305_j63891933495303_2_alg».proof.Proof.Gen.ReferenceIdeal.Run
import proofs.«119305_j63891933495303_2_alg».proof.Proof.Gen.ReferenceIdeal.Read
import proofs.«119305_j63891933495303_2_alg».proof.Proof.KernelRun
import proofs.«119305_j63891933495303_2_alg».proof.Proof.RefRow
import Idealize.ShloMosaic.Adequacy
import Idealize.ShloMosaic.Init

noncomputable section

namespace Cert.Proof

open Idealize.ShloMosaic Idealize.SL.Sem

/-- The kernel's program as printed runs, and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its idealized program. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- And the reference: its run with the result dropped. -/
theorem frame_reference : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the arguments, both idealized programs end with the result array at attention over the
    batch of heads of the arguments: the kernel's by its run read off the region, the reference's by its operations read
    one at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Row.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
